-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x32 : Shape := ⟨2, ![4096, 32]⟩
abbrev S32x4096 : Shape := ⟨2, ![32, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg4 : FVec F S32x4096 .f32) (main_arg5 : FVec F S4096x32 .f32) (main_arg6 : FVec F S32x4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S32x4096 .f32 := Host.absf main_arg4
  let main_cst_6 : FVec F S_ .f32 := constant S_ .f32 0x7F800000#32
  let main_v20 : FVec F S32x4096 .f32 := broadcastInDim S32x4096 ![] bcast_S_S32x4096 main_cst_6
  let main_v21 : IVec S32x4096 1 := cmpf .olt main_v19 main_v20
  let main_c_7 : IVec S_ 1 := constantI S_ 1 1#1
  let main_v22 : IVec S_ 1 := (fun x v => Host.reduce IntOp.andi x v reducesTo_S32x4096_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  main_v33

def fn {F : FTy → Type} [FloatOps F] (main_arg0 : FVec F S4x4096x4096 .f32) (main_arg1 : FVec F S4096x32 .f32) (main_arg2 : FVec F S32x4096 .f32) (main_arg3 : FVec F S4096x32 .f32) (main_arg4 : FVec F S32x4096 .f32) (main_arg5 : FVec F S4096x32 .f32) (main_arg6 : FVec F S32x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_arg6 main_v13 main_v16
-- ==== Kernel.lean ====
abbrev S4x4096x4096 : Shape := ⟨3, ![4, 4096, 4096]⟩
abbrev S4096x32 : Shape := ⟨2, ![4096, 32]⟩
abbrev S32x4096 : Shape := ⟨2, ![32, 4096]⟩
abbrev S4096x96 : Shape := ⟨2, ![4096, 96]⟩
abbrev S96x4096 : Shape := ⟨2, ![96, 4096]⟩
abbrev S_ : Shape := ⟨0, ![]⟩
abbrev S4096x128 : Shape := ⟨2, ![4096, 128]⟩
abbrev S128x4096 : Shape := ⟨2, ![128, 4096]⟩
abbrev S16384x4096 : Shape := ⟨2, ![16384, 4096]⟩
abbrev S256x4096 : Shape := ⟨2, ![256, 4096]⟩
abbrev S256x128 : Shape := ⟨2, ![256, 128]⟩

abbrev nBuf : Space → Nat
  | .hbm => 23
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x32, .f32⟩
  | .hbm, ⟨2, _⟩ => ⟨S32x4096, .f32⟩
  | .hbm, ⟨3, _⟩ => ⟨S4096x32, .f32⟩
  | .hbm, ⟨4, _⟩ => ⟨S32x4096, .f32⟩
  | .hbm, ⟨5, _⟩ => ⟨S4096x32, .f32⟩
  | .hbm, ⟨6, _⟩ => ⟨S32x4096, .f32⟩
  | .hbm, ⟨7, _⟩ => ⟨S4096x96, .f32⟩
  | .hbm, ⟨8, _⟩ => ⟨S96x4096, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x128, .bf16⟩
  | .hbm, ⟨13, _⟩ => ⟨S_, .i32⟩
  | .hbm, ⟨14, _⟩ => ⟨S_, .f32⟩
  | .hbm, ⟨15, _⟩ => ⟨S128x4096, .f32⟩
  | .hbm, ⟨16, _⟩ => ⟨S_, .f32⟩
  | .hbm, ⟨17, _⟩ => ⟨S128x4096, .f32⟩
  | .hbm, ⟨18, _⟩ => ⟨S128x4096, .f32⟩
  | .hbm, ⟨19, _⟩ => ⟨S128x4096, .bf16⟩
  | .hbm, ⟨20, _⟩ => ⟨S16384x4096, .f32⟩
  | .hbm, ⟨21, _⟩ => ⟨S16384x4096, .f32⟩
  | .hbm, ⟨22, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S4096x128, .bf16⟩
  | .local _ .vmem, ⟨3, _⟩ => ⟨S128x4096, .bf16⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S4096x32_S4096x32_S4096x32_S4096x96_d1 : Shape.Concatenates [S4096x32, S4096x32, S4096x32] S4096x96 1
  concatenates_S32x4096_S32x4096_S32x4096_S96x4096_d0 : Shape.Concatenates [S32x4096, S32x4096, S32x4096] S96x4096 0
  pads_S4096x96_S4096x128_000_0320 : S4096x96.Pads (![0, 0] : Fin 2 → Nat) ![0, 32] ![0, 0] S4096x128
  h_S_ : 0 < S_.numel
  bitsLt_bf16_f32 : FTy.bits .bf16 < FTy.bits .f32
  pads_S96x4096_S128x4096_0320_000 : S96x4096.Pads (![0, 0] : Fin 2 → Nat) ![32, 0] ![0, 0] S128x4096
  bcast_S_S128x4096 : S_.BroadcastsInDim S128x4096 (![] : Fin 0 → Fin S128x4096.rank)
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S16384x4096_S4x4096x4096 : S16384x4096.ShapeCasts S4x4096x4096
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .bf16 = 32 ∨ (Rect.block (s := S128x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_v8) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x32 : Shape := ⟨2, ![4096, 32]⟩
abbrev S32x4096 : Shape := ⟨2, ![32, 4096]⟩
abbrev S4096x96 : Shape := ⟨2, ![4096, 96]⟩
abbrev S96x4096 : Shape := ⟨2, ![96, 4096]⟩
abbrev S4x4096x96 : Shape := ⟨3, ![4, 4096, 96]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x32, .f32⟩
  | .hbm, ⟨2, _⟩ => ⟨S32x4096, .f32⟩
  | .hbm, ⟨3, _⟩ => ⟨S4096x32, .f32⟩
  | .hbm, ⟨4, _⟩ => ⟨S32x4096, .f32⟩
  | .hbm, ⟨5, _⟩ => ⟨S4096x32, .f32⟩
  | .hbm, ⟨6, _⟩ => ⟨S32x4096, .f32⟩
  | .hbm, ⟨7, _⟩ => ⟨S4096x96, .f32⟩
  | .hbm, ⟨8, _⟩ => ⟨S96x4096, .f32⟩
  | .hbm, ⟨9, _⟩ => ⟨S4x4096x96, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  concatenates_S4096x32_S4096x32_S4096x32_S4096x96_d1 : Shape.Concatenates [S4096x32, S4096x32, S4096x32] S4096x96 1
  concatenates_S32x4096_S32x4096_S32x4096_S96x4096_d0 : Shape.Concatenates [S32x4096, S32x4096, S32x4096] S96x4096 0
  bcast_S_S4x4096x4096 : S_.BroadcastsInDim S4x4096x4096 (![] : Fin 0 → Fin S4x4096x4096.rank)
  dot_S4x4096x4096_S4096x96_S4x4096x96_2_0_01_1_n_n_wf : DotDims.WF S4x4096x4096 S4096x96 S4x4096x96 [2] [0] [0, 1] [1] [] []
  dot_S4x4096x96_S96x4096_S4x4096x4096_2_0_01_1_n_n_wf : DotDims.WF S4x4096x96 S96x4096 S4x4096x4096 [2] [0] [0, 1] [1] [] []

variable [Facts₀]

def dot_S4x4096x4096_S4096x96_S4x4096x96_2_0_01_1_n_n : DotDims S4x4096x4096 S4096x96 S4x4096x96 where
  lhsContracting := [2]
  rhsContracting := [0]
  lhsNonContracting := [0, 1]
  rhsNonContracting := [1]
  lhsBatch := []
  rhsBatch := []
  wf := dot_S4x4096x4096_S4096x96_S4x4096x96_2_0_01_1_n_n_wf
def dot_S4x4096x96_S96x4096_S4x4096x4096_2_0_01_1_n_n : DotDims S4x4096x96 S96x4096 S4x4096x4096 where
  lhsContracting := [2]
  rhsContracting := [0]
  lhsNonContracting := [0, 1]
  rhsNonContracting := [1]
  lhsBatch := []
  rhsBatch := []
  wf := dot_S4x4096x96_S96x4096_S4x4096x4096_2_0_01_1_n_n_wf

class Facts : Prop extends Facts₀ where

variable [Facts]
-- ==== Proof.BitsAround.lean ====
/-
  `@main` of the kernel as printed around its one pallas_call.

  Before the region the host concatenates the three A's along the rank axis and the three B's along it, pads both to
  rank 128 with zeros, scales the padded B by 2⁻⁵, converts both to bf16 and flattens x to 16384 rows; after it, it
  reshapes the 16384 × 4096 result back to 4 × 4096 × 4096. None of these lines writes an argument array, so each
  argument is found by the region as launched and ends as launched; the region's four arrays are the flattened x,
  the two padded factors and the result.
  Here: the contents every buffer has when the region is entered (`entryVal`), that `@main` is those lines, the region
  and the last reshape, each argument kept before and after, each window's block at a grid point (`blockAt`), and the
  frame claim read off any run that ends in the library's frame post.
-/
import proofs.«145167_j40398462386258_2_alg».proof.Proof.Gen.Kernel.Launch
import proofs.«145167_j40398462386258_2_alg».proof.Proof.Gen.Kernel.Skeleton
import proofs.«145167_j40398462386258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the region -/

/-- Core `c`'s buffer contents when the region is entered: the launch contents after the host lines before it. -/
abbrev entryVal (c : Dev nD) : Valuation τ sig (Elt F) :=
  StableHlo.after (List.flatten [hostOps0, hostOps0_1, hostOps0_2, hostOps0_3, hostOps0_4]) (fun b => m (c, b))
/-- The same read at a TensorCore reference. -/
abbrev entryAt (c : Dev nD) (b : Ref sig .tc) : Buf (Elt F) ((c : Thread nD τ).loc b) := entryVal m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` is the host lines before the region, the region, and the reshape after it: it reduces to the region
    continued by that last line, entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches the pipeline's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are kept -/

/-- No host line before the region writes `main_arg0`: the region finds it as launched. -/
theorem entry_main_arg0 (c : Dev nD) : entryAt m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg0` ends as launched. -/
theorem exit_main_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_main_arg0 m c

/-- No host line before the region writes `main_arg1`: the region finds it as launched. -/
theorem entry_main_arg1 (c : Dev nD) : entryAt m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg1` ends as launched. -/
theorem exit_main_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact entry_main_arg1 m c

/-- No host line before the region writes `main_arg2`: the region finds it as launched. -/
theorem entry_main_arg2 (c : Dev nD) : entryAt m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg2` ends as launched. -/
theorem exit_main_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg2 (by exact (by decide : ∀ w, Pipeline.arrRef spec0 w ≠ main_arg2))]
  exact entry_main_arg2 m c

/-- No host line before the region writes `main_arg3`: the region finds it as launched. -/
theorem entry_main_arg3 (c : Dev nD) : entryAt m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg3` ends as launched. -/
theorem exit_main_arg3 (dats : (p : Fin _) → (c : Dev nD) → Dat τ (Elt F) Unit ℕ (UR sig nD τ) ℕ (cfgs p) c) (c : Dev nD) :
    Pipeline.afterTail₀ cfgs dats 0 (entryVal m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg3 (by exact (by decide : ∀ w, Pipeline.arrRef spec0 w ≠ main_arg3))]
  exact entry_main_arg3 m c

/-- No host line before the region writes `main_arg4`: the region finds it as launched. -/
theorem entry_main_arg4 (c : Dev nD) : entryAt m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg4` ends as launched. -/
theorem exit_main_arg4 (dats : (p : Fin _) → (c : Dev nD) → Dat τ (Elt F) Unit ℕ (UR sig nD τ) ℕ (cfgs p) c) (c : Dev nD) :
    Pipeline.afterTail₀ cfgs dats 0 (entryVal m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg4 (by exact (by decide : ∀ w, Pipeline.arrRef spec0 w ≠ main_arg4))]
  exact entry_main_arg4 m c

/-- No host line before the region writes `main_arg5`: the region finds it as launched. -/
theorem entry_main_arg5 (c : Dev nD) : entryAt m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg5` ends as launched. -/
theorem exit_main_arg5 (dats : (p : Fin _) → (c : Dev nD) → Dat τ (Elt F) Unit ℕ (UR sig nD τ) ℕ (cfgs p) c) (c : Dev nD) :
    Pipeline.afterTail₀ cfgs dats 0 (entryVal m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg5 (by exact (by decide : ∀ w, Pipeline.arrRef spec0 w ≠ main_arg5))]
  exact entry_main_arg5 m c

/-- No host line before the region writes `main_arg6`: the region finds it as launched. -/
theorem entry_main_arg6 (c : Dev nD) : entryAt m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg6` ends as launched. -/
theorem exit_main_arg6 (dats : (p : Fin _) → (c : Dev nD) → Dat τ (Elt F) Unit ℕ (UR sig nD τ) ℕ (cfgs p) c) (c : Dev nD) :
    Pipeline.afterTail₀ cfgs dats 0 (entryVal m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg6 (by exact (by decide : ∀ w, Pipeline.arrRef spec0 w ≠ main_arg6))]
  exact entry_main_arg6 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, whether the pipeline fetched it there
    or the block index has not moved since it did: the window is never cut and never idle. -/
theorem found0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether the pipeline fetched it there
    or the block index has not moved since it did: the window is never cut and never idle. -/
theorem found1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether the pipeline fetched it there
    or the block index has not moved since it did: the window is never cut and never idle. -/
theorem found2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a frame run -/

/-- For any proof data whose arrays are the region-entry contents, a run that ends in the library's frame post leaves
    every argument array as launched: no window stages an argument, so each is among the buffers that bypass the
    region, kept by the lines before it and by the line after it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (exit_main_arg0 m dats c),
    ((h c).2 main_arg1 (Pipeline.mem_restRefs_of main_arg1 (by decide) (by decide))).trans (exit_main_arg1 m dats c),
    ((h c).2 main_arg2 (Pipeline.mem_restRefs_of main_arg2 (by decide) (by decide))).trans (exit_main_arg2 m dats c),
    ((h c).2 main_arg3 (Pipeline.mem_restRefs_of main_arg3 (by decide) (by decide))).trans (exit_main_arg3 m dats c),
    ((h c).2 main_arg4 (Pipeline.mem_restRefs_of main_arg4 (by decide) (by decide))).trans (exit_main_arg4 m dats c),
    ((h c).2 main_arg5 (Pipeline.mem_restRefs_of main_arg5 (by decide) (by decide))).trans (exit_main_arg5 m dats c),
    ((h c).2 main_arg6 (Pipeline.mem_restRefs_of main_arg6 (by decide) (by decide))).trans (exit_main_arg6 m dats c)⟩) h

end Cert.Kernel.Around

end
-- ==== Proof.BitsBody.lean ====
/-
  The body of the pallas_call of the kernel as printed at a grid point, and the run of `@main`.

  At grid point `t` the body is handed rows 256·t … 256·t + 255 of the flattened x, the whole padded A (4096 × 128)
  and the whole padded, scaled B (128 × 4096); it converts the x block to bf16, multiplies it by A into a zero f32
  accumulator, converts the product to bf16, multiplies it by B into a zero f32 accumulator, and stores the 256 × 4096
  result over the whole output block (a load of the output block just before the store reads nothing that is used). So after the body the three input buffers hold what they
  held, and the output buffer holds the one store's value (`stored`) of the three input blocks. With that as proof
  data the library's frame run around the region applies: every weakly fair execution of `@main` terminates, faults
  nowhere, leaves each of the region's arrays at what the library computes from the data, and every other unscoped
  buffer as the reshape after the region leaves it.
-/
import proofs.«145167_j40398462386258_2_alg».proof.Proof.BitsAround

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Around

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- The whole of a 256 × 4096 buffer, of the padded A's and of the padded B's, as the rectangles the body accesses. -/
abbrev rowsRect : Rect S256x4096 := Rect.unit (s := S256x4096) ![0, 0] S256x4096.size inb_S256x4096_S256x4096_0_0
abbrev aRect : Rect S4096x128 := Rect.unit (s := S4096x128) ![0, 0] S4096x128.size inb_S4096x128_S4096x128_0_0
abbrev bRect : Rect S128x4096 := Rect.unit (s := S128x4096) ![0, 0] S128x4096.size inb_S128x4096_S128x4096_0_0

/-- The output buffer after the body, from the three input blocks: its one store, of the two products. -/
def stored (x : Vec F S256x4096 .f32) (a : Vec F S4096x128 .bf16) (b : Vec F S128x4096 .bf16) : Vec F S256x4096 .f32 :=
  View.canon [⟨rowsRect, k0_pay1 (View.ld x rowsRect) (View.ld a aRect) (View.ld b bRect)⟩]

/-- The one store is of the whole buffer, so it covers it. -/
theorem stored_covers (p : Vec F S256x4096 .f32) (y : S256x4096.Idx) :
    ∃ pc ∈ ([⟨rowsRect, p⟩] : List (View.Piece (Elt F) S256x4096 .f32)), y ∈ pc.1.set :=
  View.cover_of_tiled [⟨rowsRect, p⟩] S256x4096.size (by rfl) y

/-! ## The body's triple -/

set_option maxHeartbeats 1000000 in
/-- On whole staging buffers, the three inputs' at read contents and the output's at anything, the body runs to its
    continuation with the inputs' as they were and the output's at `stored` of the inputs'. -/
theorem body_triple (c : Dev nD) (E : Set ℕ) (i : grid0.Coords)
    (arg1 : Memref sig .tc .vmem S256x4096 .f32) (harg1 : arg1.IsWhole) (arg2 : Memref sig .tc .vmem S4096x128 .bf16) (harg2 : arg2.IsWhole)
    (arg3 : Memref sig .tc .vmem S128x4096 .bf16) (harg3 : arg3.IsWhole) (arg4 : Memref sig .tc .vmem S256x4096 .f32) (harg4 : arg4.IsWhole)
    (x : Vec F S256x4096 .f32) (a : Vec F S4096x128 .bf16) (b : Vec F S128x4096 .bf16) (K : PUnit → sProp 𝕄) :
    iprop(owns (c : Thread nD τ) arg1 fullShare x ∗ owns (c : Thread nD τ) arg2 fullShare a ∗ owns (c : Thread nD τ) arg3 fullShare b
        ∗ (∃ d, owns (c : Thread nD τ) arg4 fullShare d)
        ∗ (iprop(owns (c : Thread nD τ) arg1 fullShare x ∗ owns (c : Thread nD τ) arg2 fullShare a ∗ owns (c : Thread nD τ) arg3 fullShare b
            ∗ owns (c : Thread nD τ) arg4 fullShare (stored x a b)) -∗ K ⟨⟩))
      ⊢ wp frame (wpE (defs₀ (F := F)) Variants.none c none) E (cc0__lora_kernel i arg1 harg1 arg2 harg2 arg3 harg3 arg4 harg4) K := by
  simp only [cc0__lora_kernel_eq_skeleton]; unfold cc0__lora_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer at its block
    and the output's at `stored` of the three blocks; the invariant the scoped rest and the generator register,
    untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = stored (blockAt m c 0 t) (blockAt m c 1 t) (blockAt m c 2 t) := by dsimp only [dats]

/-- Each input's current staging buffer holds its block at every point, fetched there or not. -/
theorem found0 (c : Dev nD) (t : Fin cfg0.N) (d) : (dats m 0 c).before 0 t d = blockAt m c 0 t :=
  found0_of m (dats m 0 c) (arrays_eq m c 0) (after0 m c) t d
theorem found1 (c : Dev nD) (t : Fin cfg0.N) (d) : (dats m 0 c).before 1 t d = blockAt m c 1 t :=
  found1_of m (dats m 0 c) (arrays_eq m c 1) (after1 m c) t d
theorem found2 (c : Dev nD) (t : Fin cfg0.N) (d) : (dats m 0 c).before 2 t d = blockAt m c 2 t :=
  found2_of m (dats m 0 c) (arrays_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

-- the launch theorem's implicit arguments are found by unifying its conclusion with this one, which takes unfolding
-- plain definitions in a metavariable's type
set_option backward.isDefEq.respectTransparency.types false in
/-- From any memory with zero counters, every weakly fair execution of `@main` terminates with every array of the
    pipeline at what the library computes from the proof data and every other unscoped buffer as the reshape after the
    region leaves it. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := arrays_eq m) (hΦ := fun _ _ => rfl)

/-- The frame claim's run, at any float instance: `@main` terminates, faults nowhere, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Body

end
-- ==== Proof.IdealAround.lean ====
/-
  `@main` of the idealized kernel around its one pallas_call.

  Before the region the host concatenates the three A's along the rank axis and the three B's along it, pads both to
  rank 128 with zeros, scales the padded B by 2⁻⁵, converts both to bf16 and flattens x to 16384 rows; after it, it
  reshapes the 16384 × 4096 result back to 4 × 4096 × 4096. None of these lines writes an argument array, so each
  argument is found by the region as launched and ends as launched; the region's four arrays are the flattened x,
  the two padded factors and the result.
  Here: the contents every buffer has when the region is entered (`entryVal`), that `@main` is those lines, the region
  and the last reshape, each argument kept before and after, each window's block at a grid point (`blockAt`), and the
  frame claim read off any run that ends in the library's frame post.
-/
import proofs.«145167_j40398462386258_2_alg».proof.Proof.Gen.KernelIdeal.Launch
import proofs.«145167_j40398462386258_2_alg».proof.Proof.Gen.KernelIdeal.Skeleton
import proofs.«145167_j40398462386258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the region -/

/-- Core `c`'s buffer contents when the region is entered: the launch contents after the host lines before it. -/
abbrev entryVal (c : Dev nD) : Valuation τ sig (Elt F) :=
  StableHlo.after (List.flatten [hostOps0, hostOps0_1, hostOps0_2, hostOps0_3, hostOps0_4]) (fun b => m (c, b))
/-- The same read at a TensorCore reference. -/
abbrev entryAt (c : Dev nD) (b : Ref sig .tc) : Buf (Elt F) ((c : Thread nD τ).loc b) := entryVal m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` is the host lines before the region, the region, and the reshape after it: it reduces to the region
    continued by that last line, entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches the pipeline's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are kept -/

/-- No host line before the region writes `main_arg0`: the region finds it as launched. -/
theorem entry_main_arg0 (c : Dev nD) : entryAt m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg0` ends as launched. -/
theorem exit_main_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_main_arg0 m c

/-- No host line before the region writes `main_arg1`: the region finds it as launched. -/
theorem entry_main_arg1 (c : Dev nD) : entryAt m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg1` ends as launched. -/
theorem exit_main_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact entry_main_arg1 m c

/-- No host line before the region writes `main_arg2`: the region finds it as launched. -/
theorem entry_main_arg2 (c : Dev nD) : entryAt m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg2` ends as launched. -/
theorem exit_main_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg2 (by exact (by decide : ∀ w, Pipeline.arrRef spec0 w ≠ main_arg2))]
  exact entry_main_arg2 m c

/-- No host line before the region writes `main_arg3`: the region finds it as launched. -/
theorem entry_main_arg3 (c : Dev nD) : entryAt m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg3` ends as launched. -/
theorem exit_main_arg3 (dats : (p : Fin _) → (c : Dev nD) → Dat τ (Elt F) Unit ℕ (UR sig nD τ) ℕ (cfgs p) c) (c : Dev nD) :
    Pipeline.afterTail₀ cfgs dats 0 (entryVal m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg3 (by exact (by decide : ∀ w, Pipeline.arrRef spec0 w ≠ main_arg3))]
  exact entry_main_arg3 m c

/-- No host line before the region writes `main_arg4`: the region finds it as launched. -/
theorem entry_main_arg4 (c : Dev nD) : entryAt m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg4` ends as launched. -/
theorem exit_main_arg4 (dats : (p : Fin _) → (c : Dev nD) → Dat τ (Elt F) Unit ℕ (UR sig nD τ) ℕ (cfgs p) c) (c : Dev nD) :
    Pipeline.afterTail₀ cfgs dats 0 (entryVal m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg4 (by exact (by decide : ∀ w, Pipeline.arrRef spec0 w ≠ main_arg4))]
  exact entry_main_arg4 m c

/-- No host line before the region writes `main_arg5`: the region finds it as launched. -/
theorem entry_main_arg5 (c : Dev nD) : entryAt m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg5` ends as launched. -/
theorem exit_main_arg5 (dats : (p : Fin _) → (c : Dev nD) → Dat τ (Elt F) Unit ℕ (UR sig nD τ) ℕ (cfgs p) c) (c : Dev nD) :
    Pipeline.afterTail₀ cfgs dats 0 (entryVal m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg5 (by exact (by decide : ∀ w, Pipeline.arrRef spec0 w ≠ main_arg5))]
  exact entry_main_arg5 m c

/-- No host line before the region writes `main_arg6`: the region finds it as launched. -/
theorem entry_main_arg6 (c : Dev nD) : entryAt m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg6` ends as launched. -/
theorem exit_main_arg6 (dats : (p : Fin _) → (c : Dev nD) → Dat τ (Elt F) Unit ℕ (UR sig nD τ) ℕ (cfgs p) c) (c : Dev nD) :
    Pipeline.afterTail₀ cfgs dats 0 (entryVal m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entryVal m c) _ main_arg6 (by exact (by decide : ∀ w, Pipeline.arrRef spec0 w ≠ main_arg6))]
  exact entry_main_arg6 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, whether the pipeline fetched it there
    or the block index has not moved since it did: the window is never cut and never idle. -/
theorem found0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether the pipeline fetched it there
    or the block index has not moved since it did: the window is never cut and never idle. -/
theorem found1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether the pipeline fetched it there
    or the block index has not moved since it did: the window is never cut and never idle. -/
theorem found2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a frame run -/

/-- For any proof data whose arrays are the region-entry contents, a run that ends in the library's frame post leaves
    every argument array as launched: no window stages an argument, so each is among the buffers that bypass the
    region, kept by the lines before it and by the line after it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (exit_main_arg0 m dats c),
    ((h c).2 main_arg1 (Pipeline.mem_restRefs_of main_arg1 (by decide) (by decide))).trans (exit_main_arg1 m dats c),
    ((h c).2 main_arg2 (Pipeline.mem_restRefs_of main_arg2 (by decide) (by decide))).trans (exit_main_arg2 m dats c),
    ((h c).2 main_arg3 (Pipeline.mem_restRefs_of main_arg3 (by decide) (by decide))).trans (exit_main_arg3 m dats c),
    ((h c).2 main_arg4 (Pipeline.mem_restRefs_of main_arg4 (by decide) (by decide))).trans (exit_main_arg4 m dats c),
    ((h c).2 main_arg5 (Pipeline.mem_restRefs_of main_arg5 (by decide) (by decide))).trans (exit_main_arg5 m dats c),
    ((h c).2 main_arg6 (Pipeline.mem_restRefs_of main_arg6 (by decide) (by decide))).trans (exit_main_arg6 m dats c)⟩) h

end Cert.KernelIdeal.Around

end
-- ==== Proof.IdealBody.lean ====
/-
  The body of the pallas_call of the idealized kernel at a grid point, and the run of `@main`.

  At grid point `t` the body is handed rows 256·t … 256·t + 255 of the flattened x, the whole padded A (4096 × 128)
  and the whole padded, scaled B (128 × 4096); it converts the x block to bf16, multiplies it by A into a zero f32
  accumulator, converts the product to bf16, multiplies it by B into a zero f32 accumulator, and stores the 256 × 4096
  result over the whole output block (a load of the output block just before the store reads nothing that is used). So after the body the three input buffers hold what they
  held, and the output buffer holds the one store's value (`stored`) of the three input blocks. With that as proof
  data the library's frame run around the region applies: every weakly fair execution of `@main` terminates, faults
  nowhere, leaves each of the region's arrays at what the library computes from the data, and every other unscoped
  buffer as the reshape after the region leaves it.
-/
import proofs.«145167_j40398462386258_2_alg».proof.Proof.IdealAround

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Around

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- The whole of a 256 × 4096 buffer, of the padded A's and of the padded B's, as the rectangles the body accesses. -/
abbrev rowsRect : Rect S256x4096 := Rect.unit (s := S256x4096) ![0, 0] S256x4096.size inb_S256x4096_S256x4096_0_0
abbrev aRect : Rect S4096x128 := Rect.unit (s := S4096x128) ![0, 0] S4096x128.size inb_S4096x128_S4096x128_0_0
abbrev bRect : Rect S128x4096 := Rect.unit (s := S128x4096) ![0, 0] S128x4096.size inb_S128x4096_S128x4096_0_0

/-- The output buffer after the body, from the three input blocks: its one store, of the two products. -/
def stored (x : Vec F S256x4096 .f32) (a : Vec F S4096x128 .bf16) (b : Vec F S128x4096 .bf16) : Vec F S256x4096 .f32 :=
  View.canon [⟨rowsRect, k0_pay1 (View.ld x rowsRect) (View.ld a aRect) (View.ld b bRect)⟩]

/-- The one store is of the whole buffer, so it covers it. -/
theorem stored_covers (p : Vec F S256x4096 .f32) (y : S256x4096.Idx) :
    ∃ pc ∈ ([⟨rowsRect, p⟩] : List (View.Piece (Elt F) S256x4096 .f32)), y ∈ pc.1.set :=
  View.cover_of_tiled [⟨rowsRect, p⟩] S256x4096.size (by rfl) y

/-! ## The body's triple -/

set_option maxHeartbeats 1000000 in
/-- On whole staging buffers, the three inputs' at read contents and the output's at anything, the body runs to its
    continuation with the inputs' as they were and the output's at `stored` of the inputs'. -/
theorem body_triple (c : Dev nD) (E : Set ℕ) (i : grid0.Coords)
    (arg1 : Memref sig .tc .vmem S256x4096 .f32) (harg1 : arg1.IsWhole) (arg2 : Memref sig .tc .vmem S4096x128 .bf16) (harg2 : arg2.IsWhole)
    (arg3 : Memref sig .tc .vmem S128x4096 .bf16) (harg3 : arg3.IsWhole) (arg4 : Memref sig .tc .vmem S256x4096 .f32) (harg4 : arg4.IsWhole)
    (x : Vec F S256x4096 .f32) (a : Vec F S4096x128 .bf16) (b : Vec F S128x4096 .bf16) (K : PUnit → sProp 𝕄) :
    iprop(owns (c : Thread nD τ) arg1 fullShare x ∗ owns (c : Thread nD τ) arg2 fullShare a ∗ owns (c : Thread nD τ) arg3 fullShare b
        ∗ (∃ d, owns (c : Thread nD τ) arg4 fullShare d)
        ∗ (iprop(owns (c : Thread nD τ) arg1 fullShare x ∗ owns (c : Thread nD τ) arg2 fullShare a ∗ owns (c : Thread nD τ) arg3 fullShare b
            ∗ owns (c : Thread nD τ) arg4 fullShare (stored x a b)) -∗ K ⟨⟩))
      ⊢ wp frame (wpE (defs₀ (F := F)) Variants.none c none) E (cc0__lora_kernel i arg1 harg1 arg2 harg2 arg3 harg3 arg4 harg4) K := by
  simp only [cc0__lora_kernel_eq_skeleton]; unfold cc0__lora_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer at its block
    and the output's at `stored` of the three blocks; the invariant the scoped rest and the generator register,
    untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = stored (blockAt m c 0 t) (blockAt m c 1 t) (blockAt m c 2 t) := by dsimp only [dats]

/-- Each input's current staging buffer holds its block at every point, fetched there or not. -/
theorem found0 (c : Dev nD) (t : Fin cfg0.N) (d) : (dats m 0 c).before 0 t d = blockAt m c 0 t :=
  found0_of m (dats m 0 c) (arrays_eq m c 0) (after0 m c) t d
theorem found1 (c : Dev nD) (t : Fin cfg0.N) (d) : (dats m 0 c).before 1 t d = blockAt m c 1 t :=
  found1_of m (dats m 0 c) (arrays_eq m c 1) (after1 m c) t d
theorem found2 (c : Dev nD) (t : Fin cfg0.N) (d) : (dats m 0 c).before 2 t d = blockAt m c 2 t :=
  found2_of m (dats m 0 c) (arrays_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

-- the launch theorem's implicit arguments are found by unifying its conclusion with this one, which takes unfolding
-- plain definitions in a metavariable's type
set_option backward.isDefEq.respectTransparency.types false in
/-- From any memory with zero counters, every weakly fair execution of `@main` terminates with every array of the
    pipeline at what the library computes from the proof data and every other unscoped buffer as the reshape after the
    region leaves it. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := arrays_eq m) (hΦ := fun _ _ => rfl)

/-- The frame claim's run, at any float instance: `@main` terminates, faults nowhere, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Body

end
-- ==== Proof.IdealStored.lean ====
/-
  The block the body stores, read at an entry, at the ideal values.

  A change of float format is the identity there and a shape cast to the same shape is the identity anywhere, so the
  stored 256 × 4096 block is the x block times the 4096 × 128 factor times the 128 × 4096 factor, each product into
  a zero accumulator a plain sum over its contracted axis: entry (p, q) is ∑_{r < 128} (∑_{k < 4096} x[p, k] · a[k, r]) · b[r, q].
-/
import proofs.«145167_j40398462386258_2_alg».proof.Proof.IdealBody
import Idealize.ShloMosaic.Lib.Pipeline.Value
import Idealize.ShloMosaic.Lib.ValueIdx
import Idealize.ShloMosaic.PureOps.Ideal.Laws

set_option maxRecDepth 16384

noncomputable section

namespace Cert.KernelIdeal.Stored

open Cert.KernelIdeal Cert.KernelIdeal.Gen Cert.KernelIdeal.Body
open Idealize.ShloMosaic Idealize.ShloMosaic.ValueIdx

/-! ## The two products' operand indices -/

theorem lhsA_0 (i : S256x128.Idx) (q : dot_S256x4096_S4096x128_S256x128_1_0_0_1_n_n.contr.Idx) : (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhsA_1 (i : S256x128.Idx) (q : dot_S256x4096_S4096x128_S256x128_1_0_0_1_n_n.contr.Idx) : (dot_S256x4096_S4096x128_S256x128_1_0_0_1_n_n.lhsIdx i q 1).val = (q ⟨0, by decide⟩).val :=
  dot_S256x4096_S4096x128_S256x128_1_0_0_1_n_n.lhsIdx_val_of_single rfl i q
theorem rhsA_0 (i : S256x128.Idx) (q : dot_S256x4096_S4096x128_S256x128_1_0_0_1_n_n.contr.Idx) : (dot_S256x4096_S4096x128_S256x128_1_0_0_1_n_n.rhsIdx i q 0).val = (q ⟨0, by decide⟩).val :=
  dot_S256x4096_S4096x128_S256x128_1_0_0_1_n_n.rhsIdx_val_of_single rfl i q
theorem rhsA_1 (i : S256x128.Idx) (q : dot_S256x4096_S4096x128_S256x128_1_0_0_1_n_n.contr.Idx) : (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

theorem lhsB_0 (i : S256x4096.Idx) (q : dot_S256x128_S128x4096_S256x4096_1_0_0_1_n_n.contr.Idx) : (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhsB_1 (i : S256x4096.Idx) (q : dot_S256x128_S128x4096_S256x4096_1_0_0_1_n_n.contr.Idx) : (dot_S256x128_S128x4096_S256x4096_1_0_0_1_n_n.lhsIdx i q 1).val = (q ⟨0, by decide⟩).val :=
  dot_S256x128_S128x4096_S256x4096_1_0_0_1_n_n.lhsIdx_val_of_single rfl i q
theorem rhsB_0 (i : S256x4096.Idx) (q : dot_S256x128_S128x4096_S256x4096_1_0_0_1_n_n.contr.Idx) : (dot_S256x128_S128x4096_S256x4096_1_0_0_1_n_n.rhsIdx i q 0).val = (q ⟨0, by decide⟩).val :=
  dot_S256x128_S128x4096_S256x4096_1_0_0_1_n_n.rhsIdx_val_of_single rfl i q
theorem rhsB_1 (i : S256x4096.Idx) (q : dot_S256x128_S128x4096_S256x4096_1_0_0_1_n_n.contr.Idx) : (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-! ## The two products at an entry -/

/-- The x block times the first factor, into zero: a sum over the 4096 input features. -/
theorem firstProduct_apply {φ₁ φ₂ : FTy} (l : FVec Ideal S256x4096 φ₁) (r : FVec Ideal S4096x128 φ₂) (p : Fin 256) (j : Fin 128) :
    matmul (F := Ideal) dot_S256x4096_S4096x128_S256x128_1_0_0_1_n_n none l r (constant (F := Ideal) S256x128 .f32 0x00000000#32) (ix2 p j) = ∑ k : Fin 4096, l (ix2 p k) * r (ix2 k j) := by
  simp only [matmul]
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 p j) ((ValueIdx.contrEquiv1 dot_S256x4096_S4096x128_S256x128_1_0_0_1_n_n 4096 rfl rfl).symm k) = ix2 p k := funext fun a => Fin.ext (by
    match a with
    | ⟨0, _⟩ => exact lhsA_0 _ _
    | ⟨1, _⟩ => exact (lhsA_1 _ _).trans hk)
  have er : dot_S256x4096_S4096x128_S256x128_1_0_0_1_n_n.rhsIdx (ix2 p j) ((ValueIdx.contrEquiv1 dot_S256x4096_S4096x128_S256x128_1_0_0_1_n_n 4096 rfl rfl).symm k) = ix2 k j := funext fun a => Fin.ext (by
    match a with
    | ⟨0, _⟩ => exact (rhsA_0 _ _).trans hk
    | ⟨1, _⟩ => exact rhsA_1 _ _)
  rw [el, er]

/-- That product times the second factor, into zero: a sum over the 128 ranks. -/
theorem secondProduct_apply {φ₁ φ₂ : FTy} (l : FVec Ideal S256x128 φ₁) (r : FVec Ideal S128x4096 φ₂) (p : Fin 256) (j : Fin 4096) :
    matmul (F := Ideal) dot_S256x128_S128x4096_S256x4096_1_0_0_1_n_n none l r (constant (F := Ideal) S256x4096 .f32 0x00000000#32) (ix2 p j) = ∑ k : Fin 128, l (ix2 p k) * r (ix2 k j) := by
  simp only [matmul]
  rw [Ideal.matmul_constant_zero_apply, ← Equiv.sum_comp (ValueIdx.contrEquiv1 dot_S256x128_S128x4096_S256x4096_1_0_0_1_n_n 128 rfl rfl).symm]
  refine Finset.sum_congr rfl fun k _ => ?_
  have hk := ValueIdx.contrEquiv1_symm_val dot_S256x128_S128x4096_S256x4096_1_0_0_1_n_n 128 rfl rfl k
  have el : dot_S256x128_S128x4096_S256x4096_1_0_0_1_n_n.lhsIdx (ix2 p j) ((ValueIdx.contrEquiv1 dot_S256x128_S128x4096_S256x4096_1_0_0_1_n_n 128 rfl rfl).symm k) = ix2 p k := funext fun a => Fin.ext (by
    match a with
    | ⟨0, _⟩ => exact lhsB_0 _ _
    | ⟨1, _⟩ => exact (lhsB_1 _ _).trans hk)
  have er : dot_S256x128_S128x4096_S256x4096_1_0_0_1_n_n.rhsIdx (ix2 p j) ((ValueIdx.contrEquiv1 dot_S256x128_S128x4096_S256x4096_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## The stored block -/

theorem offsets_zero : (![0, 0] : Fin 2 → Nat) = fun _ => 0 := by funext a; fin_cases a <;> rfl

/-- The one store covers the buffer and the loads read whole buffers: the stored block is the payload of the blocks
    (at any float instance). -/
theorem stored_eq {F : FTy → Type} [FloatOps F] (x : Vec F S256x4096 .f32) (a : Vec F S4096x128 .bf16) (b : Vec F S128x4096 .bf16) :
    stored x a b = k0_pay1 x a b := by
  unfold stored
  rw [View.canon_unit_zero offsets_zero]
  simp only [View.ld_unit_zero (S := S256x4096) offsets_zero, View.ld_unit_zero (S := S4096x128) offsets_zero,
    View.ld_unit_zero (S := S128x4096) offsets_zero]

/-- The payload at entry (p, q), at the ideal values. -/
theorem payload_apply (x : Vec Ideal S256x4096 .f32) (a : Vec Ideal S4096x128 .bf16) (b : Vec Ideal S128x4096 .bf16)
    (p : Fin 256) (q : Fin 4096) :
    k0_pay1 (F := Ideal) x a b (ix2 p q) = ∑ r : Fin 128, (∑ k : Fin 4096, x (ix2 p k) * a (ix2 k r)) * b (ix2 r q) := by
  unfold k0_pay1
  simp only [shapeCast_self]
  refine (secondProduct_apply (φ₁ := .bf16) (φ₂ := .bf16) _ b p q).trans ?_
  refine Finset.sum_congr rfl fun r _ => ?_
  exact congrArg (· * b (ix2 r q)) (firstProduct_apply (φ₁ := .bf16) (φ₂ := .bf16) _ a p r)

/-- The stored block at entry (p, q), at the ideal values. -/
theorem stored_apply (x : Vec Ideal S256x4096 .f32) (a : Vec Ideal S4096x128 .bf16) (b : Vec Ideal S128x4096 .bf16)
    (p : Fin 256) (q : Fin 4096) :
    stored (F := Ideal) x a b (ix2 p q) = ∑ r : Fin 128, (∑ k : Fin 4096, x (ix2 p k) * a (ix2 k r)) * b (ix2 r q) := by
  rw [stored_eq]; exact payload_apply x a b p q

end Cert.KernelIdeal.Stored

end
-- ==== Proof.IdealEntry.lean ====
/-
  What the region's three input arrays hold when it is entered, as terms of the argument arrays (at any float instance).

  The flattened x is the reshape of x to 16384 × 4096; the first factor is the three A's side by side, padded on the
  right with 32 columns of the converted integer 0 and converted to bf16; the second is the three B's one above the
  other, padded below with 32 rows of the converted integer 0, multiplied entry by entry with 2⁻⁵ and converted to
  bf16. Each is read off the fold of the host lines before the region, one line at a time.
-/
import proofs.«145167_j40398462386258_2_alg».proof.Proof.IdealAround

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Around

variable {F : FTy → Type} [FloatOps F]

variable (m : (ℓ : Loc nD τ sig) → Buf (Elt F) ℓ)

/-- The three A's side by side (4096 × 96). -/
abbrev aCat (c : Dev nD) : (⟨S4096x96, .f32⟩ : BufTy).Contents (Elt F) :=
  concatenate S4096x96 1 [⟨S4096x32, m ((c.tc : Thread nD τ).loc main_arg1)⟩, ⟨S4096x32, m ((c.tc : Thread nD τ).loc main_arg3)⟩,
    ⟨S4096x32, m ((c.tc : Thread nD τ).loc main_arg5)⟩] concatenates_S4096x32_S4096x32_S4096x32_S4096x96_d1

/-- The three B's one above the other (96 × 4096). -/
abbrev bCat (c : Dev nD) : (⟨S96x4096, .f32⟩ : BufTy).Contents (Elt F) :=
  concatenate S96x4096 0 [⟨S32x4096, m ((c.tc : Thread nD τ).loc main_arg2)⟩, ⟨S32x4096, m ((c.tc : Thread nD τ).loc main_arg4)⟩,
    ⟨S32x4096, m ((c.tc : Thread nD τ).loc main_arg6)⟩] concatenates_S32x4096_S32x4096_S32x4096_S96x4096_d0

/-- The padding value: the integer 0 converted to f32. -/
abbrev padValue : (⟨S_, .f32⟩ : BufTy).Contents (Elt F) := sitofp .f32 (constantI S_ 32 0#32)

/-- Window 0's array: x flattened to 16384 rows. -/
theorem entry_rows (c : Dev nD) :
    (entryAt m c main_v8 : (⟨S16384x4096, .f32⟩ : BufTy).Contents (Elt F))
      = shapeCast S16384x4096 (m ((c.tc : Thread nD τ).loc main_arg0)) shapeCasts_S4x4096x4096_S16384x4096 := by
  dsimp only [entryAt, entryVal]
  simp only [hostOps0, hostOps0_1, hostOps0_2, hostOps0_3, hostOps0_4, List.flatten_cons, List.flatten_nil, List.append_nil, List.cons_append, List.nil_append]
  after_results
  rfl

/-- Window 1's array: the A's, padded to rank 128, in bf16. -/
theorem entry_a (c : Dev nD) :
    (entryAt m c main_v3 : (⟨S4096x128, .bf16⟩ : BufTy).Contents (Elt F))
      = truncf .bf16 (pad S4096x128 ![0, 0] ![0, 32] ![0, 0] (aCat m c) (padValue (F := F)) pads_S4096x96_S4096x128_000_0320 h_S_) bitsLt_bf16_f32 := by
  dsimp only [entryAt, entryVal]
  simp only [hostOps0, hostOps0_1, hostOps0_2, hostOps0_3, hostOps0_4, List.flatten_cons, List.flatten_nil, List.append_nil, List.cons_append, List.nil_append]
  after_results
  rfl

/-- Window 2's array: the B's, padded to rank 128, scaled by 2⁻⁵, in bf16. -/
theorem entry_b (c : Dev nD) :
    (entryAt m c main_v7 : (⟨S128x4096, .bf16⟩ : BufTy).Contents (Elt F))
      = truncf .bf16 (mulf (pad S128x4096 ![0, 0] ![32, 0] ![0, 0] (bCat m c) (padValue (F := F)) pads_S96x4096_S128x4096_0320_000 h_S_)
          (broadcastInDim S128x4096 ![] bcast_S_S128x4096 (constant S_ .f32 0x3D000000#32))) bitsLt_bf16_f32 := by
  dsimp only [entryAt, entryVal]
  simp only [hostOps0, hostOps0_1, hostOps0_2, hostOps0_3, hostOps0_4, List.flatten_cons, List.flatten_nil, List.append_nil, List.cons_append, List.nil_append]
  after_results
  dsimp only [Matrix.cons_val]
  repeat (rw [StableHlo.nary_result_ne]; rotate_left; decide)
  rfl

end Cert.KernelIdeal.Entry

end
-- ==== Proof.LowRankLaw.lean ====
/-
  The mathematics of the low-rank update, on the extended reals.

  The reference computes, for a batch b, a position s and an output feature o,
      ( ∑_{r < 96} ( ∑_{k < 4096} x[b, s, k] · A[k, r] ) · B[r, o] ) · 2⁻⁵,
  where A (4096 × 96) and B (96 × 4096) are the three rank-32 factors laid side by side. The kernel pads the rank to
  128 with zero columns of A and zero rows of B, scales the padded B by 2⁻⁵ beforehand, flattens (b, s) to one row
  M = 4096·b + s, and computes
      ∑_{r < 128} ( ∑_{k < 4096} X[M, k] · A'[k, r] ) · ( B'[r, o] · 2⁻⁵ ).
  The two agree: a term with r ≥ 96 has the factor B'[r, o] · 2⁻⁵ = 0 · 2⁻⁵ = 0, so it vanishes whatever its other
  factor is; on r < 96 the products reassociate, and multiplication by a nonnegative REAL distributes over every sum
  of extended reals (also over ⊤ + ⊥ = ⊥), so the scale moves out of the sum. No finiteness of x, A or B is needed.
-/
import Idealize.ShloMosaic.PureOps.Ideal
import Idealize.ShloMosaic.PureOps.Ideal.Laws
import Idealize.ShloMosaic.Lib.ValueIdx

noncomputable section

namespace Cert.LowRank

open Idealize.ShloMosaic Idealize.ShloMosaic.ValueIdx

/-! ## The scale -/

/-- The f32 word of 0.03125 denotes the real 2⁻⁵ = 1/32. -/
theorem scale_eq : Ideal.ofBits .f32 0x3D000000#32 = ((1 / 32 : ℝ) : EReal) := by
  simp [Ideal.ofBits, Ideal.ieee, -EReal.coe_mul]; norm_num

theorem scale_nonneg : (0 : EReal) ≤ Ideal.ofBits .f32 0x3D000000#32 := by
  rw [scale_eq]; exact_mod_cast (by norm_num : (0 : ℝ) ≤ 1 / 32)

theorem scale_ne_top : Ideal.ofBits .f32 0x3D000000#32 ≠ ⊤ := by
  rw [scale_eq]; exact EReal.coe_ne_top _

/-! ## Sums and a nonnegative real factor -/

/-- A nonnegative real factor distributes over a finite sum of extended reals, infinite terms of both signs included. -/
theorem sum_mul_of_nonneg {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The rank sum padded from 96 to 128: when the padded entries of `b` are zero, the scaled sum over 128 is the sum
    over the first 96, scaled. -/
theorem padded_rank_sum (h b : Fin 128 → EReal) (c : EReal) (h0 : 0 ≤ c) (ht : c ≠ ⊤)
    (hb : ∀ r : Fin 32, b (Fin.natAdd 96 r) = 0) :
    ∑ r : Fin 128, h r * (b r * c) = (∑ r : Fin 96, h (Fin.castAdd 32 r) * b (Fin.castAdd 32 r)) * c := by
  have split := Fin.sum_univ_add (M := EReal) (a := 96) (b := 32) (fun r => h r * (b r * c))
  have tail0 : ∑ r : Fin 32, h (Fin.natAdd 96 r) * (b (Fin.natAdd 96 r) * c) = 0 :=
    Finset.sum_eq_zero fun r _ => by rw [hb r, zero_mul, mul_zero]
  refine split.trans ?_
  rw [tail0, add_zero, sum_mul_of_nonneg _ _ h0 ht]
  exact Finset.sum_congr rfl fun r _ => (mul_assoc _ _ _).symm

/-! ## The two forms of the result -/

/-- The reference's result: the product through the rank-96 factors, scaled by `c`. -/
def product (c : EReal) (x : (⟨3, ![4, 4096, 4096]⟩ : Shape).Idx → EReal) (A : (⟨2, ![4096, 96]⟩ : Shape).Idx → EReal)
    (B : (⟨2, ![96, 4096]⟩ : Shape).Idx → EReal) : (⟨3, ![4, 4096, 4096]⟩ : Shape).Idx → EReal := fun i =>
  (∑ r : Fin 96, (∑ k : Fin 4096, x (ix3 (i 0) (i 1) k) * A (ix2 k r)) * B (ix2 r (i 2))) * c

/-- The kernel's result on the flattened rows: the product through rank-128 factors, nothing scaled afterwards. -/
def paddedProduct (X : (⟨2, ![16384, 4096]⟩ : Shape).Idx → EReal) (A' : (⟨2, ![4096, 128]⟩ : Shape).Idx → EReal)
    (B' : (⟨2, ![128, 4096]⟩ : Shape).Idx → EReal) : (⟨2, ![16384, 4096]⟩ : Shape).Idx → EReal := fun j =>
  ∑ r : Fin 128, (∑ k : Fin 4096, X (ix2 (j 0) k) * A' (ix2 k r)) * B' (ix2 r (j 1))

/-- They agree at a flattened row `M` and the index `(b, s)` it flattens, when `X` is the flattened `x`, `A'` is `A`
    on the first 96 columns, and `B'` is `B` on the first 96 rows and zero on the rest, scaled by `c`. -/
theorem paddedProduct_eq_product (c : EReal) (h0 : 0 ≤ c) (ht : c ≠ ⊤)
    (x : (⟨3, ![4, 4096, 4096]⟩ : Shape).Idx → EReal) (A : (⟨2, ![4096, 96]⟩ : Shape).Idx → EReal)
    (B : (⟨2, ![96, 4096]⟩ : Shape).Idx → EReal)
    (X : (⟨2, ![16384, 4096]⟩ : Shape).Idx → EReal) (A' : (⟨2, ![4096, 128]⟩ : Shape).Idx → EReal)
    (B' : (⟨2, ![128, 4096]⟩ : Shape).Idx → EReal) (Bp : (⟨2, ![128, 4096]⟩ : Shape).Idx → EReal)
    (M : Fin 16384) (bt : Fin 4) (s : Fin 4096) (o : Fin 4096)
    (hX : ∀ k : Fin 4096, X (ix2 M k) = x (ix3 bt s k))
    (hA : ∀ (k : Fin 4096) (r : Fin 96), A' (ix2 k (Fin.castAdd 32 r)) = A (ix2 k r))
    (hB' : ∀ r : Fin 128, B' (ix2 r o) = Bp (ix2 r o) * c)
    (hB : ∀ r : Fin 96, Bp (ix2 (Fin.castAdd 32 r) o) = B (ix2 r o))
    (hz : ∀ r : Fin 32, Bp (ix2 (Fin.natAdd 96 r) o) = 0) :
    paddedProduct X A' B' (ix2 M o) = product c x A B (ix3 bt s o) := by
  unfold paddedProduct product
  show ∑ r : Fin 128, (∑ k : Fin 4096, X (ix2 M k) * A' (ix2 k r)) * B' (ix2 r o)
    = (∑ r : Fin 96, (∑ k : Fin 4096, x (ix3 bt s k) * A (ix2 k r)) * B (ix2 r o)) * c
  rw [Finset.sum_congr rfl (fun r _ => by rw [hB' r] :
      ∀ r ∈ (Finset.univ : Finset (Fin 128)), (∑ k : Fin 4096, X (ix2 M k) * A' (ix2 k r)) * B' (ix2 r o)
        = (∑ k : Fin 4096, X (ix2 M k) * A' (ix2 k r)) * (Bp (ix2 r o) * c)),
    padded_rank_sum (fun r => ∑ k : Fin 4096, X (ix2 M k) * A' (ix2 k r)) (fun r => Bp (ix2 r o)) c h0 ht hz]
  refine congrArg (· * c) (Finset.sum_congr rfl fun r _ => ?_)
  show (∑ k : Fin 4096, X (ix2 M k) * A' (ix2 k (Fin.castAdd 32 r))) * Bp (ix2 (Fin.castAdd 32 r) o) = _
  rw [hB r]
  exact congrArg (· * B (ix2 r o)) (Finset.sum_congr rfl fun k _ => by rw [hX k, hA k r])

end Cert.LowRank

end
-- ==== Proof.IdealResult.lean ====
/-
  The idealized kernel's result as one function of the arguments.

  Grid point t writes back rows 256·t … 256·t + 255 of the 16384 × 4096 result, and what it writes is the stored block
  of the three input blocks at t: row p of the x block is row 256·t + p of the flattened x, and the two factors' blocks
  are the whole factors at every point. So each point writes its rows of ONE array, the product of the flattened x
  through the two padded factors (`flatResult`); the 64 blocks tile the rows, so after the region the result array is
  that product. The line after the region reshapes it to 4 × 4096 × 4096: entry (b, s, o) is entry (4096·b + s, o).
  Reading the padded factors inside and outside the padding, and the flattened x at its row, the law of the low-rank
  product turns this into the specification's product through the rank-96 factors, scaled by 2⁻⁵.
-/
import proofs.«145167_j40398462386258_2_alg».proof.Proof.IdealStored
import proofs.«145167_j40398462386258_2_alg».proof.Proof.IdealEntry
import proofs.«145167_j40398462386258_2_alg».proof.Proof.LowRankLaw
import Idealize.ShloMosaic.Lib.KernelVsHost
import Idealize.ShloMosaic.Lib.StableHlo.Run

set_option maxRecDepth 16384

noncomputable section

namespace Cert.KernelIdeal.Result

open Cert.KernelIdeal Cert.KernelIdeal.Gen Cert.KernelIdeal.Around Cert.KernelIdeal.Body Cert.KernelIdeal.Entry Cert.KernelIdeal.Stored
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The block index maps -/

/-- Decided over the 64 grid points: the x window and the result window move together down the rows, one block per
    point, and the two factors' windows stay at the origin. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## One array for all the blocks -/

/-- The whole result on the flattened rows: the flattened x through the two padded factors as the region finds them. -/
def flatResult (c : Dev nD) : (⟨S16384x4096, .f32⟩ : BufTy).Contents (Elt Ideal) :=
  Cert.LowRank.paddedProduct (entryAt m c main_v8) (entryAt m c main_v3) (entryAt m c main_v7)

/-- A stored block's entry is an entry of the whole product, when the x block's row is a row of the whole x and the
    factors' blocks are the whole factors where the entry reads them. -/
theorem stored_is_block (X : (⟨2, ![16384, 4096]⟩ : Shape).Idx → EReal) (A' : (⟨2, ![4096, 128]⟩ : Shape).Idx → EReal)
    (B' : (⟨2, ![128, 4096]⟩ : Shape).Idx → EReal)
    (xb : Vec Ideal S256x4096 .f32) (ab : Vec Ideal S4096x128 .bf16) (bb : Vec Ideal S128x4096 .bf16)
    (j : S256x4096.Idx) (i : (⟨2, ![16384, 4096]⟩ : Shape).Idx)
    (hx : ∀ k : Fin 4096, xb (ix2 (j 0) k) = X (ix2 (i 0) k))
    (ha : ∀ (k : Fin 4096) (r : Fin 128), ab (ix2 k r) = A' (ix2 k r))
    (hb : ∀ r : Fin 128, bb (ix2 r (j 1)) = B' (ix2 r (i 1))) :
    stored (F := Ideal) xb ab bb j = Cert.LowRank.paddedProduct X A' B' i := by
  obtain ⟨p, q, rfl⟩ : ∃ (p : Fin 256) (q : Fin 4096), j = ix2 p q := ⟨j 0, j 1, eq_ix2 j⟩
  rw [stored_apply]
  show ∑ r : Fin 128, (∑ k : Fin 4096, xb (ix2 p k) * ab (ix2 k r)) * bb (ix2 r q)
    = ∑ r : Fin 128, (∑ k : Fin 4096, X (ix2 (i 0) k) * A' (ix2 k r)) * B' (ix2 r (i 1))
  refine Finset.sum_congr rfl fun r _ => ?_
  have hbr : bb (ix2 r q) = B' (ix2 r (i 1)) := hb r
  rw [hbr]
  refine congrArg (· * B' (ix2 r (i 1))) (Finset.sum_congr rfl fun k _ => ?_)
  have hxk : xb (ix2 p k) = X (ix2 (i 0) k) := hx k
  rw [hxk, ha k r]

/-- What grid point `t` writes back is block `t` of the whole product. -/
theorem written_eq (c : Dev nD) (t : Fin cfg0.N) :
    (dats m 0 c).flushed 3 t = ((cfg0.win 3).blk t).view.read (Elt Ideal) (flatResult m c) := by
  show (cfg0.win 3).cut (grid0.coords t) ((dats m 0 c).after 3 t) = _
  rw [after3]
  obtain ⟨e0, e1, e2, e3, e4, e5, e6, e7⟩ := idx_facts t
  refine funext fun (j : S256x4096.Idx) => ?_
  show stored (blockAt m c 0 t) (blockAt m c 1 t) (blockAt m c 2 t) j
    = Cert.LowRank.paddedProduct (entryAt m c main_v8) (entryAt m c main_v3) (entryAt m c main_v7) (((cfg0.win 3).blk t).view.emb j)
  refine stored_is_block (entryAt m c main_v8) (entryAt m c main_v3) (entryAt m c main_v7) _ _ _ j _ ?_ ?_ ?_
  · intro k
    show entryAt m c main_v8 (((cfg0.win 0).blk t).view.emb (ix2 (j 0) k))
      = entryAt m c main_v8 (ix2 ((((cfg0.win 3).blk t).view.emb j) 0) k)
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * k.val = k.val; omega
  · intro k r
    show entryAt m c main_v3 (((cfg0.win 1).blk t).view.emb (ix2 k r)) = entryAt m c main_v3 (ix2 k r)
    refine congrArg _ (funext fun a => Fin.ext ?_)
    match a with
    | ⟨0, _⟩ => show win0_1.index t (0 : Fin 2) * 4096 + 1 * k.val = k.val; omega
    | ⟨1, _⟩ => show win0_1.index t (1 : Fin 2) * 128 + 1 * r.val = r.val; omega
  · intro r
    show entryAt m c main_v7 (((cfg0.win 2).blk t).view.emb (ix2 r (j 1)))
      = entryAt m c main_v7 (ix2 r ((((cfg0.win 3).blk t).view.emb j) 1))
    refine congrArg _ (funext fun a => Fin.ext ?_)
    match a with
    | ⟨0, _⟩ => show win0_2.index t (0 : Fin 2) * 128 + 1 * r.val = r.val; omega
    | ⟨1, _⟩ => show win0_2.index t (1 : Fin 2) * 4096 + 1 * (j 1).val = win0_3.index t (1 : Fin 2) * 4096 + 1 * (j 1).val; omega

/-- An index of the result array is in point `t`'s block iff each coordinate is in the block's range on its axis. -/
theorem mem_block (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v9).slice (win0_3.rect t)).set ↔ _
  rw [View.set_slice_whole, Rect.mem_set_unit]
  exact Iff.rfl

/-- The 64 blocks of 256 rows tile the 16384 rows: row `r` is in the block of point `r / 256`. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, -, -, e6, e7⟩ := idx_facts t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- After the region the result array is the whole product. -/
theorem result_array (c : Dev nD) : (dats m 0 c).arrAt 3 cfg0.N = flatResult m c :=
  (dats m 0 c).arrAt_eq_of_cover 3 (flatResult m c) (fun t _ => written_eq m c t) covered

/-! ## The reshape after the region -/

/-- The program's result buffer after the last line: the whole product, reshaped to 4 × 4096 × 4096. -/
theorem result_value (c : Dev nD) :
    (Pipeline.afterTail₀ cfgs (dats m) 0 (entryVal m) [hostOps1] c main_v10 : (⟨S4x4096x4096, .f32⟩ : BufTy).Contents (Elt Ideal))
      = shapeCast S4x4096x4096 (flatResult m c) shapeCasts_S16384x4096_S4x4096x4096 := by
  unfold Pipeline.afterTail₀
  show StableHlo.after hostOps1 _ (Proc.devRef .tc main_v10) = _
  after_results
  rw [(Pipeline.withArrays_arr spec0 launch0.win.arr_inj c _ _ 3).trans (result_array m c)]
  rfl

/-! ## The arguments read through the host lines -/

/-- A row of the flattened x is a (batch, position) row of x. -/
theorem rows_apply (c : Dev nD) (M : Fin 16384) (bt : Fin 4) (s : Fin 4096) (hM : M.val = bt.val * 4096 + s.val) (k : Fin 4096) :
    (entryAt m c main_v8 : (⟨S16384x4096, .f32⟩ : BufTy).Contents (Elt Ideal)) (ix2 M k) = m ((c.tc : Thread nD τ).loc main_arg0) (ix3 bt s k) := by
  rw [entry_rows]
  exact shapeCast_apply _ _ (ix2 M k) (ix3 bt s k) (by
    rw [Shape.rowMajor_val_three, Shape.rowMajor_val_two]
    show (bt.val * 4096 + s.val) * 4096 + k.val = M.val * 4096 + k.val
    rw [hM])

/-- The first factor on its first 96 columns is the concatenated A's. -/
theorem a_apply (c : Dev nD) (k : Fin 4096) (r : Fin 96) :
    (entryAt m c main_v3 : (⟨S4096x128, .bf16⟩ : BufTy).Contents (Elt Ideal)) (ix2 k (Fin.castAdd 32 r)) = aCat m c (ix2 k r) := by
  rw [entry_a]
  show pad S4096x128 ![0, 0] ![0, 32] ![0, 0] (aCat m c) (padValue (F := Ideal)) pads_S4096x96_S4096x128_000_0320 h_S_ (ix2 k (Fin.castAdd 32 r)) = _
  exact pad_apply_of_inside _ _ _ _ _ _ _ (ix2 k (Fin.castAdd 32 r)) (ix2 k r) (fun a => by
    match a with
    | ⟨0, _⟩ => show k.val = 0 + k.val * (0 + 1); omega
    | ⟨1, _⟩ => show r.val = 0 + r.val * (0 + 1); omega)

/-- The concatenated B's padded below with 32 rows of the converted integer zero. -/
abbrev bPadded (c : Dev nD) : FVec Ideal S128x4096 .f32 :=
  pad S128x4096 ![0, 0] ![32, 0] ![0, 0] (bCat m c) (padValue (F := Ideal)) pads_S96x4096_S128x4096_0320_000 h_S_

/-- The second factor is the padded B's, each entry times 2⁻⁵. -/
theorem b_scaled (c : Dev nD) (j : S128x4096.Idx) :
    (entryAt m c main_v7 : (⟨S128x4096, .bf16⟩ : BufTy).Contents (Elt Ideal)) j = bPadded m c j * Ideal.ofBits .f32 0x3D000000#32 := by
  rw [entry_b]
  show bPadded m c j * (broadcastInDim S128x4096 ![] bcast_S_S128x4096 (constant (F := Ideal) S_ .f32 0x3D000000#32)) j = _
  rw [broadcastInDim_apply _ bcast_S_S128x4096 _ j (fun a => a.elim0) (fun a => a.elim0)]
  rfl

/-- On the first 96 rows the padded B's are the concatenated B's. -/
theorem b_inside (c : Dev nD) (r : Fin 96) (o : Fin 4096) : bPadded m c (ix2 (Fin.castAdd 32 r) o) = bCat m c (ix2 r o) :=
  pad_apply_of_inside _ _ _ _ _ _ _ (ix2 (Fin.castAdd 32 r) o) (ix2 r o) (fun a => by
    match a with
    | ⟨0, _⟩ => show r.val = 0 + r.val * (0 + 1); omega
    | ⟨1, _⟩ => show o.val = 0 + o.val * (0 + 1); omega)

/-- On the last 32 rows they are the padding value, the integer zero converted: the real 0. -/
theorem b_outside (c : Dev nD) (r : Fin 32) (o : Fin 4096) : bPadded m c (ix2 (Fin.natAdd 96 r) o) = 0 := by
  refine (pad_apply_of_not_inside _ _ _ _ _ _ _ (ix2 (Fin.natAdd 96 r) o) (0 : Fin 2) (fun h => ?_)).trans ?_
  · have h3 : (96 + r.val - 0) / (0 + 1) < 96 := h.2.2
    omega
  · show ((((0#32 : BitVec 32).toInt : ℤ) : ℝ) : EReal) = 0
    simp

/-! ## The result is the specification's product -/

/-- The reshaped whole product is the product through the rank-96 factors, scaled by the word of 2⁻⁵. -/
theorem value_eq_product (c : Dev nD) :
    shapeCast S4x4096x4096 (flatResult m c) shapeCasts_S16384x4096_S4x4096x4096
      = Cert.LowRank.product (Ideal.ofBits .f32 0x3D000000#32) (m ((c.tc : Thread nD τ).loc main_arg0)) (aCat m c) (bCat m c) := by
  funext i
  have h0 : (i 0).val < 4 := (i 0).isLt
  have h1 : (i 1).val < 4096 := (i 1).isLt
  have hM : (i 0).val * 4096 + (i 1).val < 16384 := by omega
  refine (shapeCast_apply (flatResult m c) shapeCasts_S16384x4096_S4x4096x4096 i (ix2 (⟨(i 0).val * 4096 + (i 1).val, hM⟩ : Fin 16384) (i 2)) (by
    rw [Shape.rowMajor_val_two, Shape.rowMajor_val_three]; rfl)).trans ?_
  refine (Cert.LowRank.paddedProduct_eq_product _ Cert.LowRank.scale_nonneg Cert.LowRank.scale_ne_top
    (m ((c.tc : Thread nD τ).loc main_arg0)) (aCat m c) (bCat m c) (entryAt m c main_v8) (entryAt m c main_v3) (entryAt m c main_v7) (bPadded m c)
    ⟨(i 0).val * 4096 + (i 1).val, hM⟩ (i 0) (i 1) (i 2)
    (fun k => rows_apply m c _ (i 0) (i 1) rfl k) (fun k r => a_apply m c k r) (fun r => b_scaled m c _)
    (fun r => b_inside m c r (i 2)) (fun r => b_outside m c r (i 2))).trans ?_
  exact congrArg _ (eq_ix3 i).symm

/-! ## The run, read -/

/-- Every weakly fair execution of the idealized kernel's `@main` terminates with its result buffer at the
    specification's product of the arguments and every argument as launched. -/
theorem run : θ_run defs (onTc (τ := τ) (main (F := Ideal))) ⟨m, fun _ => 0, ρ⟩ fun r => ∀ c : Dev nD,
      r.2.mem ((c.tc : Thread nD τ).loc main_v10) = Cert.LowRank.product (Ideal.ofBits .f32 0x3D000000#32) (m ((c.tc : Thread nD τ).loc main_arg0)) (aCat m c) (bCat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v10 (Pipeline.mem_restRefs_of main_v10 (by decide) (by decide))).trans
      ((result_value m c).trans (value_eq_product m c)),
    ((h c).2 main_arg0 (Pipeline.mem_restRefs_of main_arg0 (by decide) (by decide))).trans (exit_main_arg0 m (dats m) c),
    ((h c).2 main_arg1 (Pipeline.mem_restRefs_of main_arg1 (by decide) (by decide))).trans (exit_main_arg1 m (dats m) c),
    ((h c).2 main_arg2 (Pipeline.mem_restRefs_of main_arg2 (by decide) (by decide))).trans (exit_main_arg2 m (dats m) c),
    ((h c).2 main_arg3 (Pipeline.mem_restRefs_of main_arg3 (by decide) (by decide))).trans (exit_main_arg3 m (dats m) c),
    ((h c).2 main_arg4 (Pipeline.mem_restRefs_of main_arg4 (by decide) (by decide))).trans (exit_main_arg4 m (dats m) c),
    ((h c).2 main_arg5 (Pipeline.mem_restRefs_of main_arg5 (by decide) (by decide))).trans (exit_main_arg5 m (dats m) c),
    ((h c).2 main_arg6 (Pipeline.mem_restRefs_of main_arg6 (by decide) (by decide))).trans (exit_main_arg6 m (dats m) c)⟩)
    (run_main m ρ)

end Cert.KernelIdeal.Result

end
-- ==== Proof.RefIsSpec.lean ====
/-
  The reference's result is the specification's product.

  Read one line at a time at the ideal values, the reference's result at (b, s, o) is the sum over the 96 ranks of
  (the sum over the 4096 input features of x[b, s, k] · A[k, r]) times B[r, o], times the broadcast 2⁻⁵: with A and B
  the concatenated factors this is `LowRank.product` word for word, once the composed operand indices are named.
-/
import proofs.«145167_j40398462386258_2_alg».proof.Defs
import proofs.«145167_j40398462386258_2_alg».proof.Proof.Gen.ReferenceIdeal.Read
import proofs.«145167_j40398462386258_2_alg».proof.Proof.LowRankLaw
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The first product's left operand, under the second product's left operand index: x at (b, s, k). -/
theorem xIndex (i : S4x4096x4096.Idx) (r : Fin 96) (k : Fin 4096) : lidx_main_v2 (lidx_main_v3 i r) k = ix3 (i 0) (i 1) k :=
  funext fun a => by match a with | ⟨0, _⟩ => rfl | ⟨1, _⟩ => rfl | ⟨2, _⟩ => rfl
/-- Its right operand there: A at (k, r). -/
theorem aIndex (i : S4x4096x4096.Idx) (r : Fin 96) (k : Fin 4096) : ridx_main_v2 (lidx_main_v3 i r) k = ix2 k r :=
  funext fun a => by match a with | ⟨0, _⟩ => rfl | ⟨1, _⟩ => rfl
/-- The second product's right operand: B at (r, o). -/
theorem bIndex (i : S4x4096x4096.Idx) (r : Fin 96) : ridx_main_v3 i r = ix2 r (i 2) :=
  funext fun a => by match a with | ⟨0, _⟩ => rfl | ⟨1, _⟩ => rfl

/-- The reference's last stage is the product through the concatenated factors, scaled by the word of 2⁻⁵. -/
theorem result_eq_product (x0 : (⟨S4x4096x4096, .f32⟩ : BufTy).Contents (Elt Ideal))
    (x1 : (⟨S4096x32, .f32⟩ : BufTy).Contents (Elt Ideal)) (x2 : (⟨S32x4096, .f32⟩ : BufTy).Contents (Elt Ideal))
    (x3 : (⟨S4096x32, .f32⟩ : BufTy).Contents (Elt Ideal)) (x4 : (⟨S32x4096, .f32⟩ : BufTy).Contents (Elt Ideal))
    (x5 : (⟨S4096x32, .f32⟩ : BufTy).Contents (Elt Ideal)) (x6 : (⟨S32x4096, .f32⟩ : BufTy).Contents (Elt Ideal)) :
    val_main_v5 (F := Ideal) x0 x1 x2 x3 x4 x5 x6
      = Cert.LowRank.product (Ideal.ofBits .f32 0x3D000000#32) x0 (val_main_v0 (F := Ideal) x1 x3 x5) (val_main_v1 (F := Ideal) x2 x4 x6) := by
  funext i
  rw [val_main_v5_apply, val_main_v3_apply, val_main_v4_apply, val_main_cst_apply]
  unfold Cert.LowRank.product
  simp only [val_main_v2_apply, xIndex, aIndex, bIndex, Ideal.mulf_def, Ideal.ofBits_def]
  rfl

end Cert.ReferenceIdeal.RefValue

end
-- ==== Proof.lean ====
/-
  A multi-scale low-rank update, out = 2⁻⁵ · (x · [A₁ A₂ A₃]) · [B₁; B₂; B₃], computed by a tiled kernel and by two plain
  products: the five claims.

  The kernel lays the three rank-32 factors side by side (rank 96), pads the rank to 128 with zeros, folds the scale
  2⁻⁵ into the padded second factor, flattens x to 16384 rows and, for each block of 256 rows, multiplies the block by
  the first factor and the product by the second; the reference multiplies x by the rank-96 factors and scales at the
  end. On the extended reals a change of float format is the identity and each product into a zero accumulator is a
  plain sum, so both compute, at (b, s, o),
      ( ∑_{r < 96} ( ∑_{k < 4096} x[b, s, k] · A[k, r] ) · B[r, o] ) · 2⁻⁵ :
  the padded ranks contribute factors B'[r, o] · 2⁻⁵ = 0, and the nonnegative real 2⁻⁵ distributes over a sum of
  extended reals whatever its terms (`LowRank.paddedProduct_eq_product`). The precondition is never opened.

  Frames: each kernel program's `@main` is host lines, the region, one reshape; the body at every grid point loads its
  three input blocks, stores one block, and touches nothing else, so the library's frame run around the region gives
  termination without fault and the arguments unchanged (`Body.frame`, at the word level and at the ideal values).
  The reference's frame is its run with the result dropped. The idealization rewrote nothing, so `preserves` is trivial.
-/
import proofs.«145167_j40398462386258_2_alg».proof.Defs
import proofs.«145167_j40398462386258_2_alg».proof.Proof.Gen.Kernel
import proofs.«145167_j40398462386258_2_alg».proof.Proof.Gen.KernelIdeal
import proofs.«145167_j40398462386258_2_alg».proof.Proof.Gen.ReferenceIdeal
import proofs.«145167_j40398462386258_2_alg».proof.Proof.Gen.Pre_finite_inputs
import proofs.«145167_j40398462386258_2_alg».proof.Proof.Gen.ReferenceIdeal.Run
import proofs.«145167_j40398462386258_2_alg».proof.Proof.Gen.ReferenceIdeal.Read
import proofs.«145167_j40398462386258_2_alg».proof.Proof.BitsBody
import proofs.«145167_j40398462386258_2_alg».proof.Proof.IdealResult
import proofs.«145167_j40398462386258_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments unchanged. -/
theorem frame_kernel : Cert.frame_Kernel := fun m ρ _ => Cert.Kernel.Body.frame m ρ

/-- So does the kernel read at the ideal values. -/
theorem frame_kernelIdeal : Cert.frame_KernelIdeal := fun m ρ _ => Cert.KernelIdeal.Body.frame m ρ

/-- The reference has no kernel: its frame is its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the product through the rank-96 factors scaled by
    2⁻⁵: the kernel's run states it of its own arguments, the reference's stages compose to it, and the arguments agree. -/
theorem algebraic : Cert.algebraic_KernelIdeal_ReferenceIdeal := by
  intro m ρ m' ρ' _ hagree
  refine ⟨fun c => Cert.LowRank.product (Ideal.ofBits .f32 0x3D000000#32)
      (m ((c.tc : Thread Cert.KernelIdeal.nD Cert.KernelIdeal.τ).loc Cert.KernelIdeal.main_arg0))
      (Cert.KernelIdeal.Entry.aCat m c) (Cert.KernelIdeal.Entry.bCat m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v5_eq (F := Ideal) _ _ _ _ _ _ _).trans
    (Cert.ReferenceIdeal.RefValue.result_eq_product _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
